-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_delta" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  reducesTo_S_S_d : S_.ReducesTo [] S_

variable [Facts]

def fn {F : FTy → Type} [FloatOps F] (main_arg0 : FVec F S16384 .f32) (main_arg1 : IVec S16384 32) (main_arg2 : FVec F S_ .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S1x2048 : Shape := ⟨2, ![1, 2048]⟩
abbrev S1024x1 : Shape := ⟨2, ![1024, 1]⟩
abbrev S1024x2048 : Shape := ⟨2, ![1024, 2048]⟩
abbrev S2048 : Shape := ⟨1, ![2048]⟩

abbrev nBuf : Space → Nat
  | .hbm => 70
  | .vmem => 6
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S16384, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384, .f32⟩
  | .hbm, ⟨13, _⟩ => ⟨S16384, .f32⟩
  | .hbm, ⟨14, _⟩ => ⟨S1x16384, .f32⟩
  | .hbm, ⟨15, _⟩ => ⟨S16384x1, .f32⟩
  | .hbm, ⟨16, _⟩ => ⟨S1x16384, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384, .f32⟩
  | .hbm, ⟨25, _⟩ => ⟨S16384, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S16384, .f32⟩
  | .hbm, ⟨32, _⟩ => ⟨S16384, .i1⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S16384, .f32⟩
  | .hbm, ⟨48, _⟩ => ⟨S16384, .f32⟩
  | .hbm, ⟨49, _⟩ => ⟨S16384, .f32⟩
  | .hbm, ⟨50, _⟩ => ⟨S16384, .i1⟩
  | .hbm, ⟨51, _⟩ => ⟨S16384, .f32⟩
  | .hbm, ⟨52, _⟩ => ⟨S16384, .f32⟩
  | .hbm, ⟨53, _⟩ => ⟨S16384, .f32⟩
  | .hbm, ⟨54, _⟩ => ⟨S16384, .f32⟩
  | .hbm, ⟨55, _⟩ => ⟨S16384, .f32⟩
  | .hbm, ⟨56, _⟩ => ⟨S16384, .f32⟩
  | .hbm, ⟨57, _⟩ => ⟨S16384, .f32⟩
  | .hbm, ⟨58, _⟩ => ⟨S16384, .f32⟩
  | .hbm, ⟨59, _⟩ => ⟨S16384, .f32⟩
  | .hbm, ⟨60, _⟩ => ⟨S16384, .f32⟩
  | .hbm, ⟨61, _⟩ => ⟨S16384, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S1x2048, .f32⟩
  | .local _ .vmem, ⟨1, _⟩ => ⟨S1x2048, .f32⟩
  | .local _ .vmem, ⟨2, _⟩ => ⟨S16384x1, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_4 : Ref sig .tc := ⟨.hbm, 62, rfl⟩
abbrev main_v28 : Ref sig .tc := ⟨.hbm, 63, rfl⟩
abbrev main_cst_5 : Ref sig .tc := ⟨.hbm, 64, rfl⟩
abbrev main_v29 : Ref sig .tc := ⟨.hbm, 65, rfl⟩
abbrev main_cst_6 : Ref sig .tc := ⟨.hbm, 66, rfl⟩
abbrev main_v30 : Ref sig .tc := ⟨.hbm, 67, rfl⟩
abbrev main_cst_7 : Ref sig .tc := ⟨.hbm, 68, rfl⟩
abbrev main_v31 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c1024_i32 : BitVec 32 := 1024#32
  let v4 : BitVec 32 := Scalar.muli c0_i32 c1024_i32
  v4
def k0_off1 (c0_i32 : BitVec 32) : Fin 2 → Nat :=
  let c1024_i32 : BitVec 32 := 1024#32
  let v4 : BitVec 32 := Scalar.muli c0_i32 c1024_i32
  let v5 : BitVec 32 := v4
  let v6 : Index := Scalar.indexCast v5
  let c0_1 : Index := 0#32
  ![v6.toNat, 0]
def k0_mult2 : BitVec 32 :=
  let c1_i32 : BitVec 32 := 1#32
  let c1024_i32_10 : BitVec 32 := 1024#32
  let v26 : BitVec 32 := Scalar.muli c1_i32 c1024_i32_10
  v26
def k0_mult3 : BitVec 32 :=
  let c2_i32 : BitVec 32 := 2#32
  let c1024_i32_20 : BitVec 32 := 1024#32
  let v48 : BitVec 32 := Scalar.muli c2_i32 c1024_i32_20
  v48
def k0_mult4 : BitVec 32 :=
  let c3_i32 : BitVec 32 := 3#32
  let c1024_i32_30 : BitVec 32 := 1024#32
  let v70 : BitVec 32 := Scalar.muli c3_i32 c1024_i32_30
  v70
def k0_mult5 : BitVec 32 :=
  let c4_i32 : BitVec 32 := 4#32
  let c1024_i32_40 : BitVec 32 := 1024#32
  let v92 : BitVec 32 := Scalar.muli c4_i32 c1024_i32_40
  v92
def k0_mult6 : BitVec 32 :=
  let c5_i32 : BitVec 32 := 5#32
  let c1024_i32_50 : BitVec 32 := 1024#32
  let v114 : BitVec 32 := Scalar.muli c5_i32 c1024_i32_50
  v114
def k0_mult7 : BitVec 32 :=
  let c6_i32 : BitVec 32 := 6#32
  let c1024_i32_60 : BitVec 32 := 1024#32
  let v136 : BitVec 32 := Scalar.muli c6_i32 c1024_i32_60
  v136
def k0_mult8 : BitVec 32 :=
  let c7_i32 : BitVec 32 := 7#32
  let c1024_i32_70 : BitVec 32 := 1024#32
  let v158 : BitVec 32 := Scalar.muli c7_i32 c1024_i32_70
  v158
def k0_mult9 : BitVec 32 :=
  let c8_i32 : BitVec 32 := 8#32
  let c1024_i32_80 : BitVec 32 := 1024#32
  let v180 : BitVec 32 := Scalar.muli c8_i32 c1024_i32_80
  v180
def k0_mult10 : BitVec 32 :=
  let c9_i32 : BitVec 32 := 9#32
  let c1024_i32_90 : BitVec 32 := 1024#32
  let v202 : BitVec 32 := Scalar.muli c9_i32 c1024_i32_90
  v202
def k0_mult11 : BitVec 32 :=
  let c10_i32 : BitVec 32 := 10#32
  let c1024_i32_100 : BitVec 32 := 1024#32
  let v224 : BitVec 32 := Scalar.muli c10_i32 c1024_i32_100
  v224
def k0_mult12 : BitVec 32 :=
  let c11_i32 : BitVec 32 := 11#32
  let c1024_i32_110 : BitVec 32 := 1024#32
  let v246 : BitVec 32 := Scalar.muli c11_i32 c1024_i32_110
  v246
def k0_mult13 : BitVec 32 :=
  let c12_i32 : BitVec 32 := 12#32
  let c1024_i32_120 : BitVec 32 := 1024#32
  let v268 : BitVec 32 := Scalar.muli c12_i32 c1024_i32_120
  v268
def k0_mult14 : BitVec 32 :=
  let c13_i32 : BitVec 32 := 13#32
  let c1024_i32_130 : BitVec 32 := 1024#32
  let v290 : BitVec 32 := Scalar.muli c13_i32 c1024_i32_130
  v290
def k0_mult15 : BitVec 32 :=
  let c14_i32 : BitVec 32 := 14#32
  let c1024_i32_140 : BitVec 32 := 1024#32
  let v312 : BitVec 32 := Scalar.muli c14_i32 c1024_i32_140
  v312
def k0_mult16 : BitVec 32 :=
  let c15_i32 : BitVec 32 := 15#32
  let c1024_i32_150 : BitVec 32 := 1024#32
  let v334 : BitVec 32 := Scalar.muli c15_i32 c1024_i32_150
  v334
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S16384 : S_.BroadcastsInDim S16384 (![] : Fin 0 → Fin S16384.rank)
  shapeCasts_S16384_S1x16384 : S16384.ShapeCasts S1x16384
  shapeCasts_S16384_S16384x1 : S16384.ShapeCasts S16384x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S1024x1 : 0 < S1024x1.numel
  shapeCasts_S1024x1_S1024x1 : S1024x1.ShapeCasts S1024x1
  broadcasts_S1024x1_S1024x2048 : S1024x1.Broadcasts S1024x2048
  broadcasts_S1x2048_S1024x2048 : S1x2048.Broadcasts S1024x2048
  natLt_1_32 : 1 < 32
  reduces_S1024x2048_S2048 : S1024x2048.Reduces [0] S2048
  shapeCasts_S2048_S1x2048 : S2048.ShapeCasts S1x2048
  shapeCasts_S1x16384_S16384 : S1x16384.ShapeCasts S16384
  reducesTo_S16384_S_d0 : S16384.ReducesTo [0] S_
  h_S_ : 0 < S_.numel
  hrank0 : 0 < grid0.rank
  k0_mult1_dvd : 1024 ∣ k0_mult1.toNat
  k0_off1_inb : ∀ (r : Fin 16), ∀ a, (k0_off1 (BitVec.ofNat 32 r.val)) a + S1024x1.size a ≤ S16384x1.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  k0_mult9_dvd : 1024 ∣ k0_mult9.toNat
  k0_mult10_dvd : 1024 ∣ k0_mult10.toNat
  k0_mult11_dvd : 1024 ∣ k0_mult11.toNat
  k0_mult12_dvd : 1024 ∣ k0_mult12.toNat
  k0_mult13_dvd : 1024 ∣ k0_mult13.toNat
  k0_mult14_dvd : 1024 ∣ k0_mult14.toNat
  k0_mult15_dvd : 1024 ∣ k0_mult15.toNat
  k0_mult16_dvd : 1024 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x16384.size a
  hwx0_0 : ∀ i : grid0.Coords, EltTy.bits .f32 = 32 ∨ (Rect.block (s := S1x16384) S1x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S16384x1.size a
  hwx0_1 : ∀ i : grid0.Coords, EltTy.bits .f32 = 32 ∨ (Rect.block (s := S16384x1) S16384x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)

variable [Facts₀]

abbrev win0_0 : Pipeline.Window sig grid0 :=
  Pipeline.Window.ofSpec (Memref.whole main_v9) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S16384x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 81
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S16384, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S1x16384, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .i1⟩
  | .hbm, ⟨23, _⟩ => ⟨S16384x16384, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S16384, .f32⟩
  | .hbm, ⟨42, _⟩ => ⟨S16384, .f32⟩
  | .hbm, ⟨43, _⟩ => ⟨S16384, .i1⟩
  | .hbm, ⟨44, _⟩ => ⟨S16384, .f32⟩
  | .hbm, ⟨45, _⟩ => ⟨S16384, .f32⟩
  | .hbm, ⟨46, _⟩ => ⟨S16384, .f32⟩
  | .hbm, ⟨47, _⟩ => ⟨S16384, .f32⟩
  | .hbm, ⟨48, _⟩ => ⟨S16384, .f32⟩
  | .hbm, ⟨49, _⟩ => ⟨S16384, .f32⟩
  | .hbm, ⟨50, _⟩ => ⟨S16384, .f32⟩
  | .hbm, ⟨51, _⟩ => ⟨S16384, .f32⟩
  | .hbm, ⟨52, _⟩ => ⟨S16384, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S16384, .f32⟩
  | .hbm, ⟨60, _⟩ => ⟨S16384, .f32⟩
  | .hbm, ⟨61, _⟩ => ⟨S16384, .i1⟩
  | .hbm, ⟨62, _⟩ => ⟨S16384, .f32⟩
  | .hbm, ⟨63, _⟩ => ⟨S16384, .f32⟩
  | .hbm, ⟨64, _⟩ => ⟨S16384, .f32⟩
  | .hbm, ⟨65, _⟩ => ⟨S16384, .f32⟩
  | .hbm, ⟨66, _⟩ => ⟨S16384, .f32⟩
  | .hbm, ⟨67, _⟩ => ⟨S16384, .f32⟩
  | .hbm, ⟨68, _⟩ => ⟨S16384, .f32⟩
  | .hbm, ⟨69, _⟩ => ⟨S16384, .f32⟩
  | .hbm, ⟨70, _⟩ => ⟨S16384, .f32⟩
  | .hbm, ⟨71, _⟩ => ⟨S16384, .f32⟩
  | .hbm, ⟨72, _⟩ => ⟨S16384, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_7 : Ref sig .tc := ⟨.hbm, 73, rfl⟩
abbrev main_v36 : Ref sig .tc := ⟨.hbm, 74, rfl⟩
abbrev main_cst_8 : Ref sig .tc := ⟨.hbm, 75, rfl⟩
abbrev main_v37 : Ref sig .tc := ⟨.hbm, 76, rfl⟩
abbrev main_cst_9 : Ref sig .tc := ⟨.hbm, 77, rfl⟩
abbrev main_v38 : Ref sig .tc := ⟨.hbm, 78, rfl⟩
abbrev main_cst_10 : Ref sig .tc := ⟨.hbm, 79, rfl⟩
abbrev main_v39 : Ref sig .tc := ⟨.hbm, 80, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  h_S_ : 0 < S_.numel
  reducesTo_S16384_S_d0 : S16384.ReducesTo [0] S_

variable [Facts₀]

class Facts : Prop extends Facts₀ where

variable [Facts]
-- ==== Proof.HostSides.lean ====
/-
  The host sides of the density kernel at exact arithmetic: what the region finds, and what the host computes after it.

  Before the region the host computes the labels as floats y, the gradient norms g = |1 / (1 + exp(-x)) - y| and lays g
  out twice, as a [1, 16384] row (the queries) and as a [16384, 1] column (the keys): the reference's own first
  operations, so g is named by the reference's stage function. After the region the host flattens the result row into
  the density vector GD and computes the weighted mean of the per-element loss, mean(16384 / (GD + eps) · loss), and
  the plain mean of the loss — again the reference's own operations, applied to the region's GD instead of the
  reference's. Both are read off the lists of host operations one result at a time.
-/
import proofs.«137257_j13503377179036_2_alg».proof.Proof.Gen.KernelIdeal.Frame
import proofs.«137257_j13503377179036_2_alg».proof.Proof.Gen.ReferenceIdeal.Read
import Idealize.ShloMosaic.Lib.StableHlo.Run
import Idealize.ShloMosaic.Lib.Tactic
import Idealize.ShloMosaic.Lib.ValueIdx

set_option maxRecDepth 16384

noncomputable section

namespace Cert.KernelIdeal.Body

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The labels as floats, as the region finds them: the host's conversion of the integer argument. -/
theorem V_labels (c : Dev nD) : V m c main_v0 = Cert.ReferenceIdeal.Read.val_main_v0 (F := Ideal) (m ((c.tc : Thread nD τ).loc main_arg1)) := by
  show StableHlo.after hostOps0 (fun b => m (c, b)) (Proc.devRef .tc main_v0) = _
  after_results
  rfl

/-- The query row as the region finds it: the gradient norms |sigmoid(x) - y|, laid out as a [1, 16384] row. -/
theorem V_query (c : Dev nD) : V m c main_v9 = shapeCast S1x16384 (Cert.ReferenceIdeal.Read.val_main_v8 (F := Ideal) (m ((c.tc : Thread nD τ).loc main_arg0)) (m ((c.tc : Thread nD τ).loc main_arg1))) shapeCasts_S16384_S1x16384 := by
  show StableHlo.after hostOps0 (fun b => m (c, b)) (Proc.devRef .tc main_v9) = _
  after_results
  rfl

/-- The key column as the region finds it: the same gradient norms, laid out as a [16384, 1] column. -/
theorem V_keys (c : Dev nD) : V m c main_v10 = shapeCast S16384x1 (Cert.ReferenceIdeal.Read.val_main_v8 (F := Ideal) (m ((c.tc : Thread nD τ).loc main_arg0)) (m ((c.tc : Thread nD τ).loc main_arg1))) shapeCasts_S16384_S16384x1 := by
  show StableHlo.after hostOps0 (fun b => m (c, b)) (Proc.devRef .tc main_v10) = _
  after_results
  rfl

section tail
open Cert.ReferenceIdeal.Read

/-- The weighted mean as a function of the density vector GD, one operation at a time: GD + eps; 16384 / (GD + eps);
    that times the per-element loss; the sum over the 16384 entries from 0; the sum over 16384. The reference applies
    it to its own density, the kernel to the density its region wrote. -/
def shifted (GD : (⟨Cert.ReferenceIdeal.S16384, .f32⟩ : BufTy).Contents (Elt Ideal)) : (⟨Cert.ReferenceIdeal.S16384, .f32⟩ : BufTy).Contents (Elt Ideal) :=
  addf (F := Ideal) (φ := .f32) GD (val_main_v21 (F := Ideal))
def beta (GD : (⟨Cert.ReferenceIdeal.S16384, .f32⟩ : BufTy).Contents (Elt Ideal)) : (⟨Cert.ReferenceIdeal.S16384, .f32⟩ : BufTy).Contents (Elt Ideal) :=
  Host.divf (F := Ideal) (φ := .f32) (val_main_v23 (F := Ideal)) (shifted GD)
def weightedLoss (GD : (⟨Cert.ReferenceIdeal.S16384, .f32⟩ : BufTy).Contents (Elt Ideal))
    (x0 : (⟨Cert.ReferenceIdeal.S16384, .f32⟩ : BufTy).Contents (Elt Ideal)) (x1 : (⟨Cert.ReferenceIdeal.S16384, .i32⟩ : BufTy).Contents (Elt Ideal))
    (x2 : (⟨Cert.ReferenceIdeal.S_, .f32⟩ : BufTy).Contents (Elt Ideal)) : (⟨Cert.ReferenceIdeal.S16384, .f32⟩ : BufTy).Contents (Elt Ideal) :=
  mulf (F := Ideal) (φ := .f32) (beta GD) (val_main_v34 (F := Ideal) x0 x1 x2)
def weightedSum (GD : (⟨Cert.ReferenceIdeal.S16384, .f32⟩ : BufTy).Contents (Elt Ideal))
    (x0 : (⟨Cert.ReferenceIdeal.S16384, .f32⟩ : BufTy).Contents (Elt Ideal)) (x1 : (⟨Cert.ReferenceIdeal.S16384, .i32⟩ : BufTy).Contents (Elt Ideal))
    (x2 : (⟨Cert.ReferenceIdeal.S_, .f32⟩ : BufTy).Contents (Elt Ideal)) : (⟨Cert.ReferenceIdeal.S_, .f32⟩ : BufTy).Contents (Elt Ideal) :=
  Host.reduceAdd (F := Ideal) (φ := .f32) (weightedLoss GD x0 x1 x2) (val_main_cst_7 (F := Ideal)) Cert.ReferenceIdeal.Gen.reducesTo_S16384_S_d0 Cert.ReferenceIdeal.Gen.h_S_
def weightedOf (GD : (⟨Cert.ReferenceIdeal.S16384, .f32⟩ : BufTy).Contents (Elt Ideal))
    (x0 : (⟨Cert.ReferenceIdeal.S16384, .f32⟩ : BufTy).Contents (Elt Ideal)) (x1 : (⟨Cert.ReferenceIdeal.S16384, .i32⟩ : BufTy).Contents (Elt Ideal))
    (x2 : (⟨Cert.ReferenceIdeal.S_, .f32⟩ : BufTy).Contents (Elt Ideal)) : (⟨Cert.ReferenceIdeal.S_, .f32⟩ : BufTy).Contents (Elt Ideal) :=
  Host.divf (F := Ideal) (φ := .f32) (weightedSum GD x0 x1 x2) (val_main_cst_8 (F := Ideal))

/-- The reference's first result is the weighted mean of its own density. -/
theorem ref_weighted (x0 : (⟨Cert.ReferenceIdeal.S16384, .f32⟩ : BufTy).Contents (Elt Ideal)) (x1 : (⟨Cert.ReferenceIdeal.S16384, .i32⟩ : BufTy).Contents (Elt Ideal))
    (x2 : (⟨Cert.ReferenceIdeal.S_, .f32⟩ : BufTy).Contents (Elt Ideal)) :
    val_main_v37 (F := Ideal) x0 x1 x2 = weightedOf (val_main_v20 (F := Ideal) x0 x1) x0 x1 x2 := rfl

set_option maxHeartbeats 16000000 in
/-- The kernel's second result, the plain mean of the per-element loss, is computed after the region by the
    reference's own operations on the arguments. -/
theorem tail_pure (c : Dev nD) :
    Pipeline.afterTail₀ cfgs (dats m) 0 (V0 m) [hostOps1, hostOps1_1, hostOps1_2, hostOps1_3, hostOps1_4] c main_v31
      = val_main_v39 (F := Ideal) (m ((c.tc : Thread nD τ).loc main_arg0)) (m ((c.tc : Thread nD τ).loc main_arg1)) (m ((c.tc : Thread nD τ).loc main_arg2)) := by
  unfold Pipeline.afterTail₀
  simp only [hostOps1, hostOps1_1, hostOps1_2, hostOps1_3, hostOps1_4, List.flatten_cons, List.flatten_nil, List.append_nil, List.cons_append, List.nil_append]
  after_results_simp
  rw [Pipeline.withArrays_of_ne _ c (V0 m c) _ main_arg0 (by exact (by decide : ∀ w, Pipeline.arrRef spec0 w ≠ main_arg0)),
    Pipeline.withArrays_of_ne _ c (V0 m c) _ main_arg2 (by exact (by decide : ∀ w, Pipeline.arrRef spec0 w ≠ main_arg2)),
    Pipeline.withArrays_of_ne _ c (V0 m c) _ main_v0 (by exact (by decide : ∀ w, Pipeline.arrRef spec0 w ≠ main_v0))]
  rw [show V0 m c (Proc.devRef .tc main_arg0) = m ((c.tc : Thread nD τ).loc main_arg0) from V_main_arg0 m c,
    show V0 m c (Proc.devRef .tc main_arg2) = m ((c.tc : Thread nD τ).loc main_arg2) from V_main_arg2 m c,
    show V0 m c (Proc.devRef .tc main_v0) = _ from V_labels m c]
  rfl

set_option maxHeartbeats 16000000 in
/-- The kernel's first result: after the region the host flattens the result row into the density vector and applies
    the reference's own remaining operations to it and to the arguments. -/
theorem tail_weighted (c : Dev nD) :
    Pipeline.afterTail₀ cfgs (dats m) 0 (V0 m) [hostOps1, hostOps1_1, hostOps1_2, hostOps1_3, hostOps1_4] c main_v29
      = weightedOf (shapeCast Cert.KernelIdeal.S16384 ((dats m 0 c).arrAt 2 cfg0.N) shapeCasts_S1x16384_S16384)
          (m ((c.tc : Thread nD τ).loc main_arg0)) (m ((c.tc : Thread nD τ).loc main_arg1)) (m ((c.tc : Thread nD τ).loc main_arg2)) := by
  unfold Pipeline.afterTail₀
  simp only [hostOps1, hostOps1_1, hostOps1_2, hostOps1_3, hostOps1_4, List.flatten_cons, List.flatten_nil, List.append_nil, List.cons_append, List.nil_append]
  after_results_simp
  have hA : Pipeline.withArrays (cfgs 0).spec c (V0 m c) (fun w => (dats m 0 c).arrAt w (cfgs 0).N) (Proc.devRef .tc main_v11)
      = (dats m 0 c).arrAt 2 cfg0.N :=
    Pipeline.withArrays_arr spec0 launch0.win.arr_inj c (V0 m c) (fun w => (dats m 0 c).arrAt w (cfgs 0).N) 2
  rw [hA, Pipeline.withArrays_of_ne _ c (V0 m c) _ main_arg0 (by exact (by decide : ∀ w, Pipeline.arrRef spec0 w ≠ main_arg0)),
    Pipeline.withArrays_of_ne _ c (V0 m c) _ main_arg2 (by exact (by decide : ∀ w, Pipeline.arrRef spec0 w ≠ main_arg2)),
    Pipeline.withArrays_of_ne _ c (V0 m c) _ main_v0 (by exact (by decide : ∀ w, Pipeline.arrRef spec0 w ≠ main_v0))]
  rw [show V0 m c (Proc.devRef .tc main_arg0) = m ((c.tc : Thread nD τ).loc main_arg0) from V_main_arg0 m c,
    show V0 m c (Proc.devRef .tc main_arg2) = m ((c.tc : Thread nD τ).loc main_arg2) from V_main_arg2 m c,
    show V0 m c (Proc.devRef .tc main_v0) = _ from V_labels m c]
  rfl
end tail

end Cert.KernelIdeal.Body
end
-- ==== Proof.Body.lean ====
/-
  What one grid point of the density kernel leaves in its output block, as a function of the two blocks it reads.

  The kernel's body at a grid point reads a query tile (a [1, 2048] row x0) and the whole key column (a [16384, 1]
  column x1, resident for all points). It zeroes a scratch row, then for each of 16 consecutive chunks of 1024 keys
  adds to the scratch row, lane by lane, the number of the chunk's keys within the threshold of the lane's query, and
  finally stores the scratch row times the reciprocal-threshold constant to the output block. The loop over chunks is
  printed fully unrolled, so the body is a straight line of 17 stores to the scratch row, each covering the whole
  row, and as many loads of it back. Here the run's record of those stores and loads is read off, one load at a
  time: each load of the scratch row reads what the store before it wrote, so the row after n chunks is the n-fold
  iterate accN of one update chunkStep from the zero row, and the output block is the last row times the constant.
-/
import proofs.«137257_j13503377179036_2_alg».proof.Proof.Gen.KernelIdeal.Frame
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.ValueIdx Idealize.SL.Sem
open Cert.KernelIdeal Cert.KernelIdeal.Gen

variable {F : FTy → Type} [FloatOps F] [Named F]

/-- Rows 1024 k, …, 1024 k + 1023 of the key column, as a [1024, 1] column. -/
def chunkOf (x1 : Vec F S16384x1 .f32) (k : ℕ) : Vec F S1024x1 .f32 :=
  fun y => if h : 1024 * k + (y 0).val < 16384 then x1 (ix2 (⟨1024 * k + (y 0).val, h⟩ : Fin 16384) (0 : Fin 1)) else x1 (ix2 (0 : Fin 16384) (0 : Fin 1))

/-- A load of 1024 rows of the resident key column from row o = 1024 k reads chunk k. -/
theorem load_chunk (arg2 : Memref sig .tc .vmem S16384x1 .f32) (harg2 : arg2.IsWhole) (x1 : Vec F S16384x1 .f32)
    (o k : ℕ) (ho : o = 1024 * k) (hk : k < 16) (inb : ∀ a, (![o, 0] : Fin 2 → ℕ) a + S1024x1.size a ≤ S16384x1.size a) :
    View.readAt (Elt F) arg2.view (Rect.unit (s := S16384x1) ![o, 0] S1024x1.size inb).toLoadRect (harg2.unread x1) = chunkOf x1 k := by
  rw [View.readAt_eq_ld, harg2.read_unread]
  funext y
  have hy : (y 0).val < 1024 := (y 0).isLt
  have hy1 : (y 1).val < 1 := (y 1).isLt
  unfold chunkOf
  rw [dif_pos (by omega)]
  show x1 _ = x1 _
  congr 1
  funext a
  apply Fin.ext
  match a with
  | ⟨0, _⟩ => show o + 1 * (y 0).val = 1024 * k + (y 0).val; omega
  | ⟨1, _⟩ => show 0 + 1 * (y 1).val = 0; omega

theorem hz : (![0, 0] : Fin 2 → Nat) = fun _ => 0 := funext fun a => by fin_cases a <;> rfl

/-- A load of the whole query tile reads the tile. -/
theorem load_query (arg1 : Memref sig .tc .vmem S1x2048 .f32) (harg1 : arg1.IsWhole) (x0 : Vec F S1x2048 .f32)
    (inb : ∀ a, (![0, 0] : Fin 2 → ℕ) a + S1x2048.size a ≤ S1x2048.size a) :
    View.readAt (Elt F) arg1.view (Rect.unit (s := S1x2048) ![0, 0] S1x2048.size inb).toLoadRect (harg1.unread x0) = x0 := by
  rw [View.readAt_eq_ld, harg1.read_unread, View.ld_unit_zero (S := S1x2048) hz]

/-- One chunk's update of the accumulator row: to each lane q of the row, add the number of the chunk's 1024 keys
    within the threshold of the query in lane q (the compare's bit extended and converted, summed over the
    chunk's rows). Every one of the sixteen unrolled chunks computes this. -/
def chunkStep (kc : Vec F S1024x1 .f32) (q : Vec F S1x2048 .f32) (acc : Vec F S1x2048 .f32) : FVec F S1x2048 .f32 :=
  k0_pay4 kc q acc

/-- The accumulator row after n chunks, from the zero row. -/
def accN (x0 : Vec F S1x2048 .f32) (x1 : Vec F S16384x1 .f32) : ℕ → FVec F S1x2048 .f32
  | 0 => k0_pay3
  | n + 1 => chunkStep (chunkOf x1 n) x0 (accN x0 x1 n)

theorem chunkStep_congr {kc kc' : Vec F S1024x1 .f32} {q q' acc acc' : Vec F S1x2048 .f32}
    (h1 : kc = kc') (h2 : q = q') (h3 : acc = acc') : chunkStep kc q acc = chunkStep kc' q' acc' := by
  subst h1 h2 h3; rfl

/-! The sixteen unrolled chunks are printed in pieces cut at fixed statement counts, so a chunk's update appears as one
    payload or as a composition of two; each is the same update. -/
section shapes
variable (kc : Vec F S1024x1 .f32) (q acc : Vec F S1x2048 .f32)
theorem shape0 : k0_pay4 kc q acc = chunkStep kc q acc := rfl
theorem shape1 : k0_pay6 (k0_pay5 kc q) (FloatOps.ofBits .f32 1036831949#32) acc = chunkStep kc q acc := rfl
theorem shape2 : k0_pay7 kc q acc = chunkStep kc q acc := rfl
theorem shape3 : k0_pay9 (k0_pay8 kc) q acc = chunkStep kc q acc := rfl
theorem shape4 : k0_pay10 kc q acc = chunkStep kc q acc := rfl
theorem shape5 : k0_pay11 kc q acc = chunkStep kc q acc := rfl
theorem shape6 : k0_pay13 (k0_pay12 kc q) acc = chunkStep kc q acc := rfl
theorem shape7 : k0_pay14 kc q acc = chunkStep kc q acc := rfl
theorem shape8 : k0_pay16 (k0_pay15 kc q) acc = chunkStep kc q acc := rfl
theorem shape9 : k0_pay17 kc q acc = chunkStep kc q acc := rfl
theorem shape10 : k0_pay19 (k0_pay18 kc) q acc = chunkStep kc q acc := rfl
theorem shape11 : k0_pay20 kc q acc = chunkStep kc q acc := rfl
theorem shape12 : k0_pay21 kc q acc = chunkStep kc q acc := rfl
theorem shape13 : k0_pay23 (k0_pay22 kc q acc) = chunkStep kc q acc := rfl
theorem shape14 : k0_pay24 kc q acc = chunkStep kc q acc := rfl
theorem shape15 : k0_pay1 (k0_pay25 kc q) acc = chunkStep kc q acc := rfl
end shapes

section words
variable (c : Dev nD) (arg1 : Memref sig .tc .vmem S1x2048 .f32) (harg1 : arg1.IsWhole) (arg2 : Memref sig .tc .vmem S16384x1 .f32) (harg2 : arg2.IsWhole) (arg4 : Memref sig .tc .vmem S1x2048 .f32)
  (x0 : Vec F S1x2048 .f32) (x1 : Vec F S16384x1 .f32)

/-- The scratch row read back after the reset is the zero row; -/
theorem word0 : kernelRun0_A.sl.v21 (F := F) c arg4 = accN x0 x1 0 := by
  unfold kernelRun0_A.sl.v21 kernelRun0_A.sl.HS0_1
  exact View.readCov_cons_toLoadRect _ _ _ _

/-- and read back after chunk 0's store it is the row after 1 chunk: the store covers the whole row, so the
    load reads the stored value, whose loads are chunk 0 of the key column, the query tile and the row before. -/
theorem word1 : kernelRun0_A.sl.v43 c arg1 harg1 arg2 harg2 arg4 x0 x1 = accN x0 x1 1 := by
  unfold kernelRun0_A.sl.v43 kernelRun0_A.sl.HS0_2
  rw [View.readCov_cons_toLoadRect]
  refine (shape0 _ _ _).trans ?_
  exact chunkStep_congr (load_chunk arg2 harg2 x1 _ 0 rfl (by decide) _) (load_query arg1 harg1 x0 _) (word0 c arg4 x0 x1)

/-- and read back after chunk 1's store it is the row after 2 chunks: the store covers the whole row, so the
    load reads the stored value, whose loads are chunk 1 of the key column, the query tile and the row before. -/
theorem word2 : kernelRun0_A.sl.v65 c arg1 harg1 arg2 harg2 arg4 x0 x1 = accN x0 x1 2 := by
  unfold kernelRun0_A.sl.v65 kernelRun0_A.sl.HS0_3
  rw [View.readCov_cons_toLoadRect]
  unfold kernelRun0_A.sl.r kernelRun0_A.sl.cst_14
  refine (shape1 _ _ _).trans ?_
  exact chunkStep_congr (load_chunk arg2 harg2 x1 _ 1 rfl (by decide) _) (load_query arg1 harg1 x0 _) (word1 c arg1 harg1 arg2 harg2 arg4 x0 x1)

/-- and read back after chunk 2's store it is the row after 3 chunks: the store covers the whole row, so the
    load reads the stored value, whose loads are chunk 2 of the key column, the query tile and the row before. -/
theorem word3 : kernelRun0_A.sl.v87 c arg1 harg1 arg2 harg2 arg4 x0 x1 = accN x0 x1 3 := by
  unfold kernelRun0_A.sl.v87 kernelRun0_A.sl.HS0_4
  rw [View.readCov_cons_toLoadRect]
  refine (shape2 _ _ _).trans ?_
  exact chunkStep_congr (load_chunk arg2 harg2 x1 _ 2 rfl (by decide) _) (load_query arg1 harg1 x0 _) (word2 c arg1 harg1 arg2 harg2 arg4 x0 x1)

/-- and read back after chunk 3's store it is the row after 4 chunks: the store covers the whole row, so the
    load reads the stored value, whose loads are chunk 3 of the key column, the query tile and the row before. -/
theorem word4 : kernelRun0_A.sl.v109 c arg1 harg1 arg2 harg2 arg4 x0 x1 = accN x0 x1 4 := by
  unfold kernelRun0_A.sl.v109 kernelRun0_A.sl.HS0_5
  rw [View.readCov_cons_toLoadRect]
  unfold kernelRun0_A.sl.r_1
  refine (shape3 _ _ _).trans ?_
  exact chunkStep_congr (load_chunk arg2 harg2 x1 _ 3 rfl (by decide) _) (load_query arg1 harg1 x0 _) (word3 c arg1 harg1 arg2 harg2 arg4 x0 x1)

/-- and read back after chunk 4's store it is the row after 5 chunks: the store covers the whole row, so the
    load reads the stored value, whose loads are chunk 4 of the key column, the query tile and the row before. -/
theorem word5 : kernelRun0_A.sl.v131 c arg1 harg1 arg2 harg2 arg4 x0 x1 = accN x0 x1 5 := by
  unfold kernelRun0_A.sl.v131 kernelRun0_A.sl.HS0_6
  rw [View.readCov_cons_toLoadRect]
  refine (shape4 _ _ _).trans ?_
  exact chunkStep_congr (load_chunk arg2 harg2 x1 _ 4 rfl (by decide) _) (load_query arg1 harg1 x0 _) (word4 c arg1 harg1 arg2 harg2 arg4 x0 x1)

/-- and read back after chunk 5's store it is the row after 6 chunks: the store covers the whole row, so the
    load reads the stored value, whose loads are chunk 5 of the key column, the query tile and the row before. -/
theorem word6 : kernelRun0_A.sl.v153 c arg1 harg1 arg2 harg2 arg4 x0 x1 = accN x0 x1 6 := by
  unfold kernelRun0_A.sl.v153 kernelRun0_A.sl.HS0_7
  rw [View.readCov_cons_toLoadRect]
  refine (shape5 _ _ _).trans ?_
  exact chunkStep_congr (load_chunk arg2 harg2 x1 _ 5 rfl (by decide) _) (load_query arg1 harg1 x0 _) (word5 c arg1 harg1 arg2 harg2 arg4 x0 x1)

/-- and read back after chunk 6's store it is the row after 7 chunks: the store covers the whole row, so the
    load reads the stored value, whose loads are chunk 6 of the key column, the query tile and the row before. -/
theorem word7 : kernelRun0_A.sl.v175 c arg1 harg1 arg2 harg2 arg4 x0 x1 = accN x0 x1 7 := by
  unfold kernelRun0_A.sl.v175 kernelRun0_A.sl.HS0_8
  rw [View.readCov_cons_toLoadRect]
  unfold kernelRun0_A.sl.r_2
  refine (shape6 _ _ _).trans ?_
  exact chunkStep_congr (load_chunk arg2 harg2 x1 _ 6 rfl (by decide) _) (load_query arg1 harg1 x0 _) (word6 c arg1 harg1 arg2 harg2 arg4 x0 x1)

/-- and read back after chunk 7's store it is the row after 8 chunks: the store covers the whole row, so the
    load reads the stored value, whose loads are chunk 7 of the key column, the query tile and the row before. -/
theorem word8 : kernelRun0_A.sl.v197 c arg1 harg1 arg2 harg2 arg4 x0 x1 = accN x0 x1 8 := by
  unfold kernelRun0_A.sl.v197 kernelRun0_A.sl.HS0_9
  rw [View.readCov_cons_toLoadRect]
  refine (shape7 _ _ _).trans ?_
  exact chunkStep_congr (load_chunk arg2 harg2 x1 _ 7 rfl (by decide) _) (load_query arg1 harg1 x0 _) (word7 c arg1 harg1 arg2 harg2 arg4 x0 x1)

/-- and read back after chunk 8's store it is the row after 9 chunks: the store covers the whole row, so the
    load reads the stored value, whose loads are chunk 8 of the key column, the query tile and the row before. -/
theorem word9 : kernelRun0_A.sl.v219 c arg1 harg1 arg2 harg2 arg4 x0 x1 = accN x0 x1 9 := by
  unfold kernelRun0_A.sl.v219 kernelRun0_A.sl.HS0_10
  rw [View.readCov_cons_toLoadRect]
  unfold kernelRun0_A.sl.r_3
  refine (shape8 _ _ _).trans ?_
  exact chunkStep_congr (load_chunk arg2 harg2 x1 _ 8 rfl (by decide) _) (load_query arg1 harg1 x0 _) (word8 c arg1 harg1 arg2 harg2 arg4 x0 x1)

/-- and read back after chunk 9's store it is the row after 10 chunks: the store covers the whole row, so the
    load reads the stored value, whose loads are chunk 9 of the key column, the query tile and the row before. -/
theorem word10 : kernelRun0_A.sl.v241 c arg1 harg1 arg2 harg2 arg4 x0 x1 = accN x0 x1 10 := by
  unfold kernelRun0_A.sl.v241 kernelRun0_A.sl.HS0_11
  rw [View.readCov_cons_toLoadRect]
  refine (shape9 _ _ _).trans ?_
  exact chunkStep_congr (load_chunk arg2 harg2 x1 _ 9 rfl (by decide) _) (load_query arg1 harg1 x0 _) (word9 c arg1 harg1 arg2 harg2 arg4 x0 x1)

/-- and read back after chunk 10's store it is the row after 11 chunks: the store covers the whole row, so the
    load reads the stored value, whose loads are chunk 10 of the key column, the query tile and the row before. -/
theorem word11 : kernelRun0_A.sl.v263 c arg1 harg1 arg2 harg2 arg4 x0 x1 = accN x0 x1 11 := by
  unfold kernelRun0_A.sl.v263 kernelRun0_A.sl.HS0_12
  rw [View.readCov_cons_toLoadRect]
  unfold kernelRun0_A.sl.r_4
  refine (shape10 _ _ _).trans ?_
  exact chunkStep_congr (load_chunk arg2 harg2 x1 _ 10 rfl (by decide) _) (load_query arg1 harg1 x0 _) (word10 c arg1 harg1 arg2 harg2 arg4 x0 x1)

/-- and read back after chunk 11's store it is the row after 12 chunks: the store covers the whole row, so the
    load reads the stored value, whose loads are chunk 11 of the key column, the query tile and the row before. -/
theorem word12 : kernelRun0_A.sl.v285 c arg1 harg1 arg2 harg2 arg4 x0 x1 = accN x0 x1 12 := by
  unfold kernelRun0_A.sl.v285 kernelRun0_A.sl.HS0_13
  rw [View.readCov_cons_toLoadRect]
  refine (shape11 _ _ _).trans ?_
  exact chunkStep_congr (load_chunk arg2 harg2 x1 _ 11 rfl (by decide) _) (load_query arg1 harg1 x0 _) (word11 c arg1 harg1 arg2 harg2 arg4 x0 x1)

/-- and read back after chunk 12's store it is the row after 13 chunks: the store covers the whole row, so the
    load reads the stored value, whose loads are chunk 12 of the key column, the query tile and the row before. -/
theorem word13 : kernelRun0_A.sl.v307 c arg1 harg1 arg2 harg2 arg4 x0 x1 = accN x0 x1 13 := by
  unfold kernelRun0_A.sl.v307 kernelRun0_A.sl.HS0_14
  rw [View.readCov_cons_toLoadRect]
  refine (shape12 _ _ _).trans ?_
  exact chunkStep_congr (load_chunk arg2 harg2 x1 _ 12 rfl (by decide) _) (load_query arg1 harg1 x0 _) (word12 c arg1 harg1 arg2 harg2 arg4 x0 x1)

/-- and read back after chunk 13's store it is the row after 14 chunks: the store covers the whole row, so the
    load reads the stored value, whose loads are chunk 13 of the key column, the query tile and the row before. -/
theorem word14 : kernelRun0_A.sl.v329 c arg1 harg1 arg2 harg2 arg4 x0 x1 = accN x0 x1 14 := by
  unfold kernelRun0_A.sl.v329 kernelRun0_A.sl.HS0_15
  rw [View.readCov_cons_toLoadRect]
  unfold kernelRun0_A.sl.r_6
  refine (shape13 _ _ _).trans ?_
  exact chunkStep_congr (load_chunk arg2 harg2 x1 _ 13 rfl (by decide) _) (load_query arg1 harg1 x0 _) (word13 c arg1 harg1 arg2 harg2 arg4 x0 x1)

/-- and read back after chunk 14's store it is the row after 15 chunks: the store covers the whole row, so the
    load reads the stored value, whose loads are chunk 14 of the key column, the query tile and the row before. -/
theorem word15 : kernelRun0_A.sl.v351 c arg1 harg1 arg2 harg2 arg4 x0 x1 = accN x0 x1 15 := by
  unfold kernelRun0_A.sl.v351 kernelRun0_A.sl.HS0_16
  rw [View.readCov_cons_toLoadRect]
  refine (shape14 _ _ _).trans ?_
  exact chunkStep_congr (load_chunk arg2 harg2 x1 _ 14 rfl (by decide) _) (load_query arg1 harg1 x0 _) (word14 c arg1 harg1 arg2 harg2 arg4 x0 x1)

/-- and read back after chunk 15's store it is the row after 16 chunks: the store covers the whole row, so the
    load reads the stored value, whose loads are chunk 15 of the key column, the query tile and the row before. -/
theorem word16 : kernelRun0_A.sl.v356 c arg1 harg1 arg2 harg2 arg4 x0 x1 = accN x0 x1 16 := by
  unfold kernelRun0_A.sl.v356 kernelRun0_A.sl.HS0_17
  rw [View.readCov_cons_toLoadRect]
  unfold kernelRun0_A.sl.r_7
  refine (shape15 _ _ _).trans ?_
  exact chunkStep_congr (load_chunk arg2 harg2 x1 _ 15 rfl (by decide) _) (load_query arg1 harg1 x0 _) (word15 c arg1 harg1 arg2 harg2 arg4 x0 x1)
end words

/-- What the body leaves in the output block: the scratch row after all sixteen chunks, times the named constant
    (the body's last payload), whatever the staging buffers are and whatever the output buffer held. -/
theorem out_eq (c : Dev nD) (i : grid0.Coords) (arg1 : Memref sig .tc .vmem S1x2048 .f32) (harg1 : arg1.IsWhole)
    (arg2 : Memref sig .tc .vmem S16384x1 .f32) (harg2 : arg2.IsWhole) (arg3 : Memref sig .tc .vmem S1x2048 .f32) (harg3 : arg3.IsWhole)
    (arg4 : Memref sig .tc .vmem S1x2048 .f32) (harg4 : arg4.IsWhole) (x0 : Vec F S1x2048 .f32) (x1 : Vec F S16384x1 .f32) :
    out0_A_2 c i arg1 harg1 arg2 harg2 arg3 harg3 arg4 harg4 x0 x1 = k0_pay2 (accN x0 x1 16) := by
  unfold out0_A_2
  rw [View.read_writes_eq_canon _ _ _ (cover0_A_2 c i arg1 harg1 arg2 harg2 arg3 harg3 arg4 harg4 x0 x1)]
  unfold kernelRun0_A
  dsimp only
  rw [View.canon_unit_zero (S := S1x2048) hz, word16]

end Cert.KernelIdeal.Body
end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.Spec.lean ====
/-
  The gradient-density count, on the extended reals.

  For a vector of keys and a query value a, the density count is the number of keys k with |k - a| <= delta,
  written as a sum of indicators, each indicator the unsigned reading of the one-bit word that the comparison
  |k - a| <= delta produces. Three facts are stated here, none of them about a program:

  * |a - b| = |b - a| for all extended reals a, b, where |x| is max x (-x) (both sides are +inf when the
    difference is not a real number);
  * a one-bit word, zero-extended to 32 bits and read as a signed integer, is the word read as a natural
    number (it is 0 or 1 either way);
  * the count over 16384 keys, accumulated chunk by chunk over 16 consecutive chunks of 1024 keys starting
    from 0, is the count over all keys: a finite sum taken in consecutive blocks.
-/
import Idealize.ShloMosaic.PureOps.Ideal
import Idealize.ShloMosaic.PureOps.Ideal.Laws
import proofs.«137257_j13503377179036_2_alg».proof.Proof.LibTileSums

noncomputable section

namespace GradDensity

open Idealize.ShloMosaic

/-- The absolute value of a difference does not depend on the order of its terms, on all extended reals: off the
    diagonal -(a - b) = b - a, and on the diagonal the two sides are the same term. -/
theorem absdiff_comm (a b : EReal) : max (a - b) (-(a - b)) = max (b - a) (-(b - a)) := by
  by_cases hab : a = b
  · subst hab; rfl
  · have h1 : -(a - b) = b - a := by
      rw [EReal.neg_sub, add_comm, ← sub_eq_add_neg]
      · by_contra h; push Not at h; exact hab (h.1.trans h.2.symm)
      · by_contra h; push Not at h; exact hab (h.1.trans h.2.symm)
    have h2 : -(b - a) = a - b := by
      rw [EReal.neg_sub, add_comm, ← sub_eq_add_neg]
      · by_contra h; push Not at h; exact hab (h.2.trans h.1.symm)
      · by_contra h; push Not at h; exact hab (h.2.trans h.1.symm)
    rw [h1, h2, max_comm]

/-- A one-bit word zero-extended to 32 bits and read signed is the word read unsigned. -/
theorem bit_toInt (b : BitVec 1) : ((b.setWidth 32).toInt : ℝ) = (b.toNat : ℝ) := by
  have h : ∀ b : BitVec 1, (b.setWidth 32).toInt = (b.toNat : Int) := by decide
  rw [h b]; norm_cast

/-- The indicator of |k - a| <= d as an extended real: the comparison's one-bit word, read unsigned. -/
def within (d k a : EReal) : EReal :=
  (((Ideal.cmp .ole (max (k - a) (-(k - a))) d).toNat : ℝ) : EReal)

theorem within_comm (d k a : EReal) : within d k a = within d a k := by
  unfold within; rw [absdiff_comm]

/-- The number of the 16384 keys within d of a, keys given by their position. -/
def count (d : EReal) (key : ℕ → EReal) (a : EReal) : EReal :=
  ∑ j : Fin 16384, within d (key j.val) a

/-- The count accumulated over the first n chunks of 1024 keys, from 0. -/
def partialCount (d : EReal) (key : ℕ → EReal) (a : EReal) : ℕ → EReal
  | 0 => 0
  | n + 1 => partialCount d key a n + ∑ r : Fin 1024, within d (key (1024 * n + r.val)) a

theorem partialCount_eq_sum (d : EReal) (key : ℕ → EReal) (a : EReal) (n : ℕ) :
    partialCount d key a n = ∑ k ∈ Finset.range n, ∑ r : Fin 1024, within d (key (1024 * k + r.val)) a := by
  induction n with
  | zero => rfl
  | succ n ih => rw [partialCount, ih, Finset.sum_range_succ]

/-- After all 16 chunks the accumulated count is the count over all keys. -/
theorem partialCount_all (d : EReal) (key : ℕ → EReal) (a : EReal) :
    partialCount d key a 16 = count d key a := by
  rw [partialCount_eq_sum, count]
  exact (LibTileSums.sum_tiles 16 1024 16384 rfl (fun n => within d (key n) a)).symm

end GradDensity

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«137257_j13503377179036_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.BodyIdeal.lean ====
/-
  The density kernel's output block at exact arithmetic, lane by lane.

  On the extended reals one chunk's update adds to lane j of the scratch row the sum over the chunk's 1024 keys k of the
  indicator of |k - a| <= d, where a is the query in lane j and d the threshold (the f32 word of 0.1): the key
  column is broadcast along the lanes and the query row along the sublanes, the compare's bit is zero-extended and
  converted (which reads it as 0 or 1), and the sum over the sublane axis is the finite sum over the chunk's rows.
  Sixteen updates from the zero row give the count over all 16384 keys (a finite sum taken in consecutive blocks),
  and the stored block is that count times the constant the statement names the reciprocal of the threshold word.
-/
import proofs.«137257_j13503377179036_2_alg».proof.Proof.Body
import proofs.«137257_j13503377179036_2_alg».proof.Proof.Spec
import proofs.«137257_j13503377179036_2_alg».proof.Proof.LibKeepdims
import proofs.«137257_j13503377179036_2_alg».proof.Proof.LibRowOps
import proofs.«137257_j13503377179036_2_alg».proof.Proof.LibColumnOps
import Idealize.ShloMosaic.PureOps.Ideal.Laws
import Idealize.ShloMosaic.PureOps.IdealRules

set_option maxRecDepth 16384

noncomputable section

namespace Cert.KernelIdeal.Body

open Idealize.ShloMosaic Idealize.ShloMosaic.TcCoe Idealize.ShloMosaic.ValueIdx Idealize.SL.Sem
open Cert.KernelIdeal Cert.KernelIdeal.Gen

/-- The threshold both programs compare against: the f32 word of 0.1 as an extended real. -/
abbrev thr : EReal := Ideal.ofBits .f32 0x3DCCCCCD#32

theorem chunkStep_apply (kc : Vec Ideal S1024x1 .f32) (q acc : Vec Ideal S1x2048 .f32) (j : Fin 2048) :
    chunkStep (F := Ideal) kc q acc (ix2 (0 : Fin 1) j)
      = acc (ix2 (0 : Fin 1) j) + ∑ r : Fin 1024, GradDensity.within thr (kc (ix2 r (0 : Fin 1))) (q (ix2 (0 : Fin 1) j)) := by
  unfold chunkStep k0_pay4
  simp only [shapeCast_self]
  change acc (ix2 (0 : Fin 1) j) + (shapeCast S1x2048 _ shapeCasts_S2048_S1x2048) (ix2 (0 : Fin 1) j) = _
  rw [LibRowOps.shapeCast_row_apply]
  refine congrArg (acc (ix2 (0 : Fin 1) j) + ·) ((LibKeepdims.sum_axis0_apply (A := 1024) (B := 2048) _ _ _ _ _ j).trans (Finset.sum_congr rfl fun r _ => ?_))
  simp only [sitofp, extui, cmpf, absf, subf, broadcast, LibColumnOps.broadcastTo_col_apply, LibRowOps.broadcastTo_row_apply]
  unfold GradDensity.within
  rw [← GradDensity.bit_toInt]
  rfl

/-- The key at position n of the key column (0 beyond the column, where no chunk reads). -/
def keyAt (x1 : Vec Ideal S16384x1 .f32) (n : ℕ) : EReal :=
  if h : n < 16384 then x1 (ix2 (⟨n, h⟩ : Fin 16384) (0 : Fin 1)) else 0

theorem chunkOf_apply (x1 : Vec Ideal S16384x1 .f32) (n : ℕ) (hn : n < 16) (r : Fin 1024) :
    chunkOf x1 n (ix2 r (0 : Fin 1)) = keyAt x1 (1024 * n + r.val) := by
  have hr : r.val < 1024 := r.isLt
  have h : 1024 * n + r.val < 16384 := by omega
  unfold chunkOf keyAt
  rw [dif_pos h, dif_pos h]

/-- The scratch row after n chunks holds, in lane j, the count of the first n chunks' keys within the threshold of
    the query in lane j: by induction on n, one chunk's update at a time. -/
theorem accN_apply (x0 : Vec Ideal S1x2048 .f32) (x1 : Vec Ideal S16384x1 .f32) (j : Fin 2048) :
    ∀ n, n ≤ 16 → accN (F := Ideal) x0 x1 n (ix2 (0 : Fin 1) j) = GradDensity.partialCount thr (keyAt x1) (x0 (ix2 (0 : Fin 1) j)) n
  | 0, _ => by
    show (shapeCast S1x2048 (broadcast S1x2048 (FloatOps.ofBits (F := Ideal) .f32 0x00000000#32)) shapeCasts_S1x2048_S1x2048) (ix2 (0 : Fin 1) j) = 0
    rw [shapeCast_self]
    exact Ideal.ofBits_zero_f32
  | n + 1, h => by
    show chunkStep (F := Ideal) (chunkOf x1 n) x0 (accN x0 x1 n) (ix2 (0 : Fin 1) j) = _
    rw [chunkStep_apply, accN_apply x0 x1 j n (by omega), GradDensity.partialCount]
    refine congrArg (_ + ·) (Finset.sum_congr rfl fun r _ => ?_)
    rw [chunkOf_apply x1 n (by omega) r]

/-- The reciprocal-threshold constant: the kernel's literal 10.0, named the exact reciprocal of the f32 word of 0.1. -/
abbrev invThr : EReal := ((134217728 / 13421773 : ℝ) : EReal)

theorem named_invThr : Named.named (F := Ideal) Cert.KernelIdeal.κ "inv_delta" (φ := .f32) 0x41200000#32 = invThr :=
  IdealRules.named_const.ideal_named_scalar _ _ _ _ rfl

/-- The output block of a grid point, lane j: the count, over all 16384 keys, of the keys within the threshold of the
    query in lane j, times the reciprocal-threshold constant. -/
theorem block_apply (x0 : Vec Ideal S1x2048 .f32) (x1 : Vec Ideal S16384x1 .f32) (j : Fin 2048) :
    k0_pay2 (F := Ideal) (accN x0 x1 16) (ix2 (0 : Fin 1) j)
      = GradDensity.count thr (keyAt x1) (x0 (ix2 (0 : Fin 1) j)) * invThr := by
  show accN (F := Ideal) x0 x1 16 (ix2 (0 : Fin 1) j) * Named.named (F := Ideal) Cert.KernelIdeal.κ "inv_delta" (φ := .f32) 0x41200000#32 = _
  rw [named_invThr, accN_apply x0 x1 j 16 (le_refl _), GradDensity.partialCount_all]

end Cert.KernelIdeal.Body
end
-- ==== Proof.DensityArray.lean ====
/-
  The density kernel's result array after the run, at exact arithmetic.

  The grid has 8 points; point t reads block (0, t) of the query row g_q : [1, 16384] (lanes 2048 t … 2048 t + 2047),
  the whole key column g_k : [16384, 1] (block (0, 0), the same at every point) and writes block (0, t) of the result
  row. The block a point writes is, lane by lane, the count over all keys within the threshold of the lane's query times
  the reciprocal-threshold constant — a function of the arrays' entries only, so block t of the result is the
  restriction to the block of ONE whole-array function (density); the 8 blocks tile the row (lane n lies in block
  n / 2048), so the result array ends holding that function of the two arrays as the region finds them.
-/
import proofs.«137257_j13503377179036_2_alg».proof.Proof.BodyIdeal

set_option maxRecDepth 16384

noncomputable section

namespace Cert.KernelIdeal.Body

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The density row of a query row and a key column: at each lane, the count of the keys within the threshold of the
    lane's query, times the reciprocal-threshold constant. -/
def density (gq : Vec Ideal S1x16384 .f32) (gk : Vec Ideal S16384x1 .f32) : Vec Ideal S1x16384 .f32 :=
  fun i => GradDensity.count thr (keyAt gk) (gq i) * invThr

/-- The output block of a grid point at any index of the block. -/
theorem block_at (x0 : Vec Ideal S1x2048 .f32) (x1 : Vec Ideal S16384x1 .f32) (y : S1x2048.Idx) :
    k0_pay2 (F := Ideal) (accN x0 x1 16) y = GradDensity.count thr (keyAt x1) (x0 y) * invThr := by
  obtain ⟨z, j, rfl⟩ : ∃ (z : Fin 1) (j : Fin 2048), y = ix2 z j := ⟨y 0, y 1, eq_ix2 y⟩
  obtain rfl : z = 0 := Subsingleton.elim _ _
  exact block_apply x0 x1 j

/-- The printed index maps over the grid: the query window and the result window are at block (0, t), the key window at
    block (0, 0). -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- What point t writes back is block t of the density row of the two arrays as the region finds them. -/
theorem flushed_eq (c : Dev nD) (t : Fin cfg0.N) :
    (dats m 0 c).flushed 2 t = ((cfg0.win 2).blk t).view.read (Elt Ideal) (density (V m c main_v9) (V m c main_v10)) := by
  show (cfg0.win 2).cut (grid0.coords t) ((dats m 0 c).after 2 t) = _
  rw [after0_2]
  unfold outsAt0
  rw [out_eq]
  obtain ⟨e0, e1, e2, e3, e4, e5⟩ := idx_facts t
  funext y
  show k0_pay2 (F := Ideal) (accN (iblk m c 0 t) (iblk m c 1 t) 16) y = density (V m c main_v9) (V m c main_v10) (((cfg0.win 2).blk t).view.emb y)
  refine (block_at (iblk m c 0 t) (iblk m c 1 t) y).trans ?_
  have h0 : iblk m c 0 t y = V m c main_v9 (((cfg0.win 2).blk t).view.emb y) := by
    show V m c main_v9 (((cfg0.win 0).blk t).view.emb y) = _
    rfl
  have hk : keyAt (iblk m c 1 t) = keyAt (V m c main_v10) := by
    funext n; unfold keyAt; split
    · rename_i h
      show V m c main_v10 (((cfg0.win 1).blk t).view.emb (ix2 (⟨n, h⟩ : Fin 16384) (0 : Fin 1))) = V m c main_v10 (ix2 (⟨n, h⟩ : Fin 16384) (0 : Fin 1))
      congr 1; funext a; apply Fin.ext
      match a with
      | ⟨0, _⟩ => show win0_1.index t (0 : Fin 2) * 16384 + 1 * n = n; omega
      | ⟨1, _⟩ => show win0_1.index t (1 : Fin 2) * 1 + 1 * 0 = 0; omega
    · rfl
  rw [h0, hk]
  rfl

/-- An index of the result row is in point t's block iff each coordinate is in the block's range on its axis. -/
theorem mem_blk (t : Fin cfg0.N) (i : S1x16384.Idx) :
    i ∈ ((cfg0.win 2).blk t).view.set ↔ ∀ a : Fin 2, win0_2.index t a * S1x2048.size a ≤ (i a).val ∧ (i a).val < win0_2.index t a * S1x2048.size a + S1x2048.size a := by
  show i ∈ ((View.whole main_v11).slice (win0_2.rect t)).set ↔ _
  rw [View.set_slice_whole, Rect.mem_set_unit]
  exact Iff.rfl

/-- The result array after the run: the density row of the query row and the key column as the region finds them. Lane n
    of the row is written by point n / 2048. -/
theorem final (c : Dev nD) : (dats m 0 c).arrAt 2 cfg0.N = density (V m c main_v9) (V m c main_v10) :=
  (dats m 0 c).arrAt_eq_of_cover 2 _ (fun t _ => flushed_eq m c t) fun i => by
    have hi0 : (i 0).val < 1 := (i 0).isLt
    have hi1 : (i 1).val < 16384 := (i 1).isLt
    have hN : cfg0.N = 8 := N_0
    have ht : (i 1).val / 2048 < cfg0.N := by rw [hN]; omega
    refine ⟨⟨(i 1).val / 2048, ht⟩, flush0_2 _, ?_⟩
    rw [mem_blk]
    obtain ⟨e0, e1, e2, e3, e4, e5⟩ := idx_facts ⟨(i 1).val / 2048, ht⟩
    intro a
    match a with
    | ⟨0, _⟩ =>
      show win0_2.index ⟨(i 1).val / 2048, ht⟩ (0 : Fin 2) * 1 ≤ (i 0).val ∧ (i 0).val < win0_2.index ⟨(i 1).val / 2048, ht⟩ (0 : Fin 2) * 1 + 1
      omega
    | ⟨1, _⟩ =>
      show win0_2.index ⟨(i 1).val / 2048, ht⟩ (1 : Fin 2) * 2048 ≤ (i 1).val ∧ (i 1).val < win0_2.index ⟨(i 1).val / 2048, ht⟩ (1 : Fin 2) * 2048 + 2048
      have e5' : win0_2.index ⟨(i 1).val / 2048, ht⟩ (1 : Fin 2) = (i 1).val / 2048 := e5
      omega

end Cert.KernelIdeal.Body
end
-- ==== Proof.LibRowFlatten.lean ====
/-
  A [1, b] row cast to the vector of length b, read at an entry.

  Dropping a leading unit axis does not move the row-major position: entry q of the vector is the row's entry (0, q).
  For any element type.
-/
import Idealize.ShloMosaic.Lib.ValueIdx
import Idealize.ShloMosaic.Lib.Pipeline.Value

noncomputable section

namespace LibRowFlatten

open Idealize.ShloMosaic Idealize.ShloMosaic.ValueIdx

/-- A [1, b] row cast into the vector of length b, read at q: the row at (0, q). -/
theorem shapeCast_flat_apply {α : Type} {b : ℕ} (x : (⟨2, ![1, b]⟩ : Shape).Idx → α)
    (h : (⟨2, ![1, b]⟩ : Shape).ShapeCasts ⟨1, ![b]⟩) (q : Fin b) :
    shapeCast ⟨1, ![b]⟩ x h (ix1 q) = x (ix2 (0 : Fin 1) q) := by
  refine shapeCast_apply x h _ _ ?_
  rw [Shape.rowMajor_val_one, Shape.rowMajor_val_two]
  show 0 * b + q.val = q.val
  rw [Nat.zero_mul, Nat.zero_add]

end LibRowFlatten

end
-- ==== Proof.RefDensity.lean ====
/-
  The reference's gradient density is the density row the kernel's region computes.

  The reference forms the full [16384, 16384] array of |g_i - g_k|, compares it with the threshold (the f32 word of
  0.1), converts the bit, sums each row i over k and divides by the same threshold word. At exact arithmetic entry i
  is (0 + the sum over k of the indicator of |g_i - g_k| <= d) / d. The kernel's density row at lane i is the sum
  over k of the indicator of |g_k - g_i| <= d, times the constant named 1/d, where d is the exact rational the
  threshold word denotes. The two agree: the absolute difference is symmetric, and a quotient by a nonzero real d is
  the product with 1/d on every extended real.
-/
import proofs.«137257_j13503377179036_2_alg».proof.Proof.DensityArray
import proofs.«137257_j13503377179036_2_alg».proof.Proof.LibRowFlatten
import proofs.«137257_j13503377179036_2_alg».proof.Proof.Gen.ReferenceIdeal.Read

set_option maxRecDepth 16384

noncomputable section

namespace Cert.KernelIdeal.Body

open Idealize.ShloMosaic Idealize.ShloMosaic.TcCoe Idealize.ShloMosaic.ValueIdx Idealize.SL.Sem
open Cert.ReferenceIdeal.Read

/-- The threshold word denotes the rational 13421773 / 2^27. -/
theorem thr_eq : thr = ((13421773 / 134217728 : ℝ) : EReal) := by
  simp [thr, Ideal.ofBits, Ideal.ieee, -EReal.coe_mul]; norm_num

/-- The product with the named reciprocal is the quotient by the threshold, on every extended real. -/
theorem mul_invThr (a : EReal) : a * invThr = Ideal.div a thr := by
  rw [thr_eq, Ideal.div_coe (by norm_num)]
  congr 2; norm_num

variable (x0 : (⟨Cert.ReferenceIdeal.S16384, .f32⟩ : BufTy).Contents (Elt Ideal)) (x1 : (⟨Cert.ReferenceIdeal.S16384, .i32⟩ : BufTy).Contents (Elt Ideal))

/-- The reference's density at entry n: the count of the entries within the threshold of entry n, over the threshold. -/
theorem ref_density_apply (n : Fin 16384) :
    val_main_v20 (F := Ideal) x0 x1 (ix1 n)
      = Ideal.div (∑ k : Fin 16384, GradDensity.within thr (val_main_v8 (F := Ideal) x0 x1 (ix1 n)) (val_main_v8 (F := Ideal) x0 x1 (ix1 k))) thr := by
  rw [val_main_v20_apply, val_main_v18_apply, val_main_v19_apply, val_main_cst_3_apply, val_main_cst_2_apply]
  simp only [Ideal.hostDivf_def, Ideal.ofBits_def, Ideal.ofBits_zero_f32, zero_add]
  refine congrArg (Ideal.div · thr) (Finset.sum_congr rfl fun k _ => ?_)
  rw [val_main_v17_apply, val_main_v16_apply, val_main_v14_apply, val_main_v13_apply, val_main_v11_apply, val_main_v12_apply,
    val_main_v9_apply, val_main_v10_apply, val_main_v15_apply, val_main_cst_1_apply]
  have e1 : idx_main_v9 (idx_main_v11 (idx_main_v18 (ix1 n) k)) = ix1 n := funext fun a => Fin.ext (by match a with | ⟨0, _⟩ => rfl)
  have e2 : idx_main_v10 (idx_main_v12 (idx_main_v18 (ix1 n) k)) = ix1 k := funext fun a => Fin.ext (by match a with | ⟨0, _⟩ => rfl)
  rw [e1, e2]
  rfl

/-- The key at position k of the gradient norms laid out as a column is entry k of the norms. -/
theorem key_of_col (k : Fin 16384) :
    keyAt (shapeCast Cert.KernelIdeal.S16384x1 (val_main_v8 (F := Ideal) x0 x1) Cert.KernelIdeal.Gen.shapeCasts_S16384_S16384x1) k.val
      = val_main_v8 (F := Ideal) x0 x1 (ix1 k) := by
  unfold keyAt
  rw [dif_pos k.isLt]
  exact LibKeepdims.shapeCast_col_apply _ _ k 0

/-- The density row the kernel's region computes from the gradient norms (laid out as a row and as a column), flattened,
    is the reference's density vector. -/
theorem density_eq_ref :
    shapeCast Cert.KernelIdeal.S16384
        (density (shapeCast Cert.KernelIdeal.S1x16384 (val_main_v8 (F := Ideal) x0 x1) Cert.KernelIdeal.Gen.shapeCasts_S16384_S1x16384)
          (shapeCast Cert.KernelIdeal.S16384x1 (val_main_v8 (F := Ideal) x0 x1) Cert.KernelIdeal.Gen.shapeCasts_S16384_S16384x1))
        Cert.KernelIdeal.Gen.shapeCasts_S1x16384_S16384
      = val_main_v20 (F := Ideal) x0 x1 := by
  funext i
  obtain ⟨n, rfl⟩ : ∃ n : Fin 16384, i = ix1 n := ⟨i 0, eq_ix1 i⟩
  rw [ref_density_apply, LibRowFlatten.shapeCast_flat_apply]
  unfold density GradDensity.count
  rw [mul_invThr, LibRowOps.shapeCast_row_apply]
  refine congrArg (Ideal.div · thr) (Finset.sum_congr rfl fun k _ => ?_)
  rw [key_of_col]
  exact GradDensity.within_comm _ _ _

end Cert.KernelIdeal.Body
end
-- ==== Proof.KernelValue.lean ====
/-
  The density kernel's run at exact arithmetic, read: its two results as the reference's own stage functions of the
  arguments.

  The frame run leaves the result row at what the grid points wrote and every other buffer at what the host lines after
  the region compute from it. The result row is the density row of the gradient norms; flattened, it is the reference's
  density vector; so the first result — the weighted mean the host computes from it — is the reference's weighted mean,
  and the second — the plain mean of the per-element loss, which never reads the region's result — is the reference's
  plain mean. The argument arrays end as launched.
-/
import proofs.«137257_j13503377179036_2_alg».proof.Proof.HostSides
import proofs.«137257_j13503377179036_2_alg».proof.Proof.RefDensity

set_option maxRecDepth 16384

noncomputable section

namespace Cert.KernelIdeal.Body

open Idealize.ShloMosaic Idealize.ShloMosaic.TcCoe Idealize.ShloMosaic.ValueIdx Idealize.SL.Sem
open Cert.KernelIdeal Cert.KernelIdeal.Gen
open Cert.ReferenceIdeal.Read

variable (m : (ℓ : Loc nD τ sig) → Buf (Elt Ideal) ℓ) (ρ : Dev nD → PrngReg)

/-- The first result after the host's lines: the reference's weighted mean of the arguments. -/
theorem weighted_eq (c : Dev nD) :
    Pipeline.afterTail₀ cfgs (dats m) 0 (V0 m) [hostOps1, hostOps1_1, hostOps1_2, hostOps1_3, hostOps1_4] c main_v29
      = val_main_v37 (F := Ideal) (m ((c.tc : Thread nD τ).loc main_arg0)) (m ((c.tc : Thread nD τ).loc main_arg1)) (m ((c.tc : Thread nD τ).loc main_arg2)) := by
  rw [tail_weighted, final, V_query, V_keys, density_eq_ref]
  exact (ref_weighted _ _ _).symm

/-- The run, read: both results at the reference's stage functions of the arguments, the arguments unchanged. -/
theorem run : θ_run defs (onTc (τ := τ) (main (F := Ideal))) ⟨m, fun _ => 0, ρ⟩ fun r => ∀ c : Dev nD,
      r.2.mem ((c.tc : Thread nD τ).loc main_v29) = val_main_v37 (F := Ideal) (m ((c.tc : Thread nD τ).loc main_arg0)) (m ((c.tc : Thread nD τ).loc main_arg1)) (m ((c.tc : Thread nD τ).loc main_arg2))
      ∧ r.2.mem ((c.tc : Thread nD τ).loc main_v31) = val_main_v39 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v29 (Pipeline.mem_restRefs_of main_v29 (by decide) (by decide))).trans (weighted_eq m c),
      ((h c).2 main_v31 (Pipeline.mem_restRefs_of main_v31 (by decide) (by decide))).trans (tail_pure m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Body
end
-- ==== Proof.lean ====
/-
  The gradient-density loss (pairwise gradient-density weighting of a binary cross-entropy), kernel against reference,
  over the extended reals.

  Both programs compute g = |sigmoid(x) - y| and the per-element loss on the host, the same way. They differ in the
  density GD_i = #{k : |g_i - g_k| <= 0.1} / 0.1. The reference forms the 16384 × 16384 array of absolute differences,
  compares, sums each row and divides by the f32 word of 0.1. The kernel sweeps 8 query tiles of 2048 lanes; at each
  it holds the whole key column resident, accumulates the count over 16 chunks of 1024 keys in a scratch row and stores
  the count times a folded constant, the f32 literal 10.0, which the statement names the exact reciprocal of the f32
  word of 0.1 (the relation the two sources spell: the kernel multiplies by 1.0 / DELTA where the reference divides
  by DELTA). At exact arithmetic the two densities are then the same function of g: |a - b| is symmetric, the count
  over all keys does not depend on how the sum is cut into chunks, and the product with 1/d is the quotient by d.
  Everything after the density — 16384 / (GD + eps), the weighted and the plain mean — is the same host computation
  in both programs.

  The kernel's frame, the reference's run and its read-at-an-index lemmas are generated modules imported here; the
  body's value at a grid point (Body, BodyIdeal), the result array (DensityArray), the host sides (HostSides), the
  comparison with the reference's density (RefDensity) and the run (KernelValue) are the modules beside this one.
-/
import proofs.«137257_j13503377179036_2_alg».proof.Defs
import proofs.«137257_j13503377179036_2_alg».proof.Proof.Gen.Kernel
import proofs.«137257_j13503377179036_2_alg».proof.Proof.Gen.Kernel.Skeleton
import proofs.«137257_j13503377179036_2_alg».proof.Proof.Gen.Kernel.Launch
import proofs.«137257_j13503377179036_2_alg».proof.Proof.Gen.Kernel.Points
import proofs.«137257_j13503377179036_2_alg».proof.Proof.Gen.Kernel.Frame
import proofs.«137257_j13503377179036_2_alg».proof.Proof.Gen.KernelIdeal
import proofs.«137257_j13503377179036_2_alg».proof.Proof.Gen.KernelIdeal.Skeleton
import proofs.«137257_j13503377179036_2_alg».proof.Proof.Gen.KernelIdeal.Launch
import proofs.«137257_j13503377179036_2_alg».proof.Proof.Gen.KernelIdeal.Points
import proofs.«137257_j13503377179036_2_alg».proof.Proof.Gen.KernelIdeal.Frame
import proofs.«137257_j13503377179036_2_alg».proof.Proof.Gen.ReferenceIdeal
import proofs.«137257_j13503377179036_2_alg».proof.Proof.Gen.ReferenceIdeal.Run
import proofs.«137257_j13503377179036_2_alg».proof.Proof.Gen.ReferenceIdeal.Read
import proofs.«137257_j13503377179036_2_alg».proof.Proof.Gen.Pre_finite_inputs
import proofs.«137257_j13503377179036_2_alg».proof.Proof.KernelValue
import Idealize.ShloMosaic.Adequacy
import Idealize.ShloMosaic.Init

noncomputable section

namespace Cert.Proof

open Idealize.ShloMosaic Idealize.SL.Sem

/-- The word-level kernel runs and keeps its arguments: its generated frame. -/
theorem frame_k : Cert.frame_Kernel := fun m ρ _ => Cert.Kernel.Gen.frame m ρ

/-- So does the kernel read at exact arithmetic. -/
theorem frame_ki : Cert.frame_KernelIdeal := fun m ρ _ => Cert.KernelIdeal.Gen.frame m ρ

/-- The reference is a host program: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one named constant: the statement's table gives the kernel's 10.0 the value 2^27 / 13421773, the reciprocal of
    the rational the f32 word of 0.1 denotes, and that is what the printed constant is at exact arithmetic. -/
theorem preserves : Cert.preserves_Kernel_KernelIdeal :=
  IdealRules.named_const.statement Cert.KernelIdeal.κ "inv_delta" .f32 0x41200000#32 ((134217728 / 13421773 : ℝ) : EReal) rfl

/-- From memories that agree on the arguments both programs end with the reference's stage functions of those arguments
    in their results: the kernel by its run read through the density row, the reference by its generated run. -/
theorem algebraic : Cert.algebraic_KernelIdeal_ReferenceIdeal := by
  intro m ρ m' ρ' _ hagree
  refine ⟨_, _, Cert.KernelIdeal.Body.run m ρ, ?_⟩
  refine (θ_run Cert.ReferenceIdeal.defs _ _).mono (fun _ h c => ⟨?_, ?_, (h c).2.2.1, (h c).2.2.2.1, (h c).2.2.2.2⟩)
    (Cert.ReferenceIdeal.Value.run (F := Ideal) m' ρ')
  · refine (h c).1.trans ((Cert.ReferenceIdeal.Read.val_main_v37_eq _ _ _).trans ?_)
    rw [(hagree c).1, (hagree c).2.1, (hagree c).2.2]
  · refine (h c).2.1.trans ((Cert.ReferenceIdeal.Read.val_main_v39_eq _ _ _).trans ?_)
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
